-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x10000 : Shape := ⟨2, ![8192, 10000]⟩
abbrev S1000x10000 : Shape := ⟨2, ![1000, 10000]⟩
abbrev S_ : Shape := ⟨0, ![]⟩

class Facts : Prop where
  bcast_S_S8192x10000 : S_.BroadcastsInDim S8192x10000 (![] : Fin 0 → Fin S8192x10000.rank)
  reducesTo_S8192x10000_S_d0_1 : S8192x10000.ReducesTo [0, 1] S_
  h_S_ : 0 < S_.numel
  bcast_S_S1000x10000 : S_.BroadcastsInDim S1000x10000 (![] : Fin 0 → Fin S1000x10000.rank)
  reducesTo_S1000x10000_S_d0_1 : S1000x10000.ReducesTo [0, 1] S_

variable [Facts]

def fn {F : FTy → Type} [FloatOps F] (main_arg0 : FVec F S8192x10000 .f32) (main_arg1 : FVec F S1000x10000 .f32) : IVec S_ 1 :=
  let main_v0 : FVec F S8192x10000 .f32 := Host.absf main_arg0
  let main_cst : FVec F S_ .f32 := constant S_ .f32 0x7F800000#32
  let main_v1 : FVec F S8192x10000 .f32 := broadcastInDim S8192x10000 ![] bcast_S_S8192x10000 main_cst
  let main_v2 : IVec S8192x10000 1 := cmpf .olt main_v0 main_v1
  let main_c : IVec S_ 1 := constantI S_ 1 1#1
  let main_v3 : IVec S_ 1 := (fun x v => Host.reduce IntOp.andi x v reducesTo_S8192x10000_S_d0_1 h_S_) main_v2 main_c
  let main_v4 : FVec F S1000x10000 .f32 := Host.absf main_arg1
  let main_cst_0 : FVec F S_ .f32 := constant S_ .f32 0x7F800000#32
  let main_v5 : FVec F S1000x10000 .f32 := broadcastInDim S1000x10000 ![] bcast_S_S1000x10000 main_cst_0
  let main_v6 : IVec S1000x10000 1 := cmpf .olt main_v4 main_v5
  let main_c_1 : IVec S_ 1 := constantI S_ 1 1#1
  let main_v7 : IVec S_ 1 := (fun x v => Host.reduce IntOp.andi x v reducesTo_S1000x10000_S_d0_1 h_S_) main_v6 main_c_1
  let main_v8 : IVec S_ 1 := andi main_v3 main_v7
  main_v8
-- ==== Kernel.lean ====
abbrev S8192x10000 : Shape := ⟨2, ![8192, 10000]⟩
abbrev S1000x10000 : Shape := ⟨2, ![1000, 10000]⟩
abbrev S_ : Shape := ⟨0, ![]⟩
abbrev S8192x1000 : Shape := ⟨2, ![8192, 1000]⟩
abbrev S128x10000 : Shape := ⟨2, ![128, 10000]⟩
abbrev S128x1000 : Shape := ⟨2, ![128, 1000]⟩

abbrev nBuf : Space → Nat
  | .hbm => 10
  | .vmem => 5
  | .smem => 0
  | _ => 0

abbrev bufTy : (tb : Table) → Fin (tcTables nBuf tb) → BufTy
  | .hbm, ⟨0, _⟩ => ⟨S8192x10000, .f32⟩
  | .hbm, ⟨1, _⟩ => ⟨S1000x10000, .f32⟩
  | .hbm, ⟨2, _⟩ => ⟨S_, .f32⟩
  | .hbm, ⟨3, _⟩ => ⟨S1000x10000, .f32⟩
  | .hbm, ⟨4, _⟩ => ⟨S1000x10000, .f32⟩
  | .hbm, ⟨5, _⟩ => ⟨S_, .f32⟩
  | .hbm, ⟨6, _⟩ => ⟨S1000x10000, .f32⟩
  | .hbm, ⟨7, _⟩ => ⟨S1000x10000, .f32⟩
  | .hbm, ⟨8, _⟩ => ⟨S1000x10000, .bf16⟩
  | .hbm, ⟨9, _⟩ => ⟨S8192x1000, .f32⟩
  | .local _ .vmem, ⟨0, _⟩ => ⟨S128x10000, .f32⟩
  | .local _ .vmem, ⟨1, _⟩ => ⟨S128x10000, .f32⟩
  | .local _ .vmem, ⟨2, _⟩ => ⟨S1000x10000, .bf16⟩
  | .local _ .vmem, ⟨3, _⟩ => ⟨S128x1000, .f32⟩
  | .local _ .vmem, ⟨4, _⟩ => ⟨S128x1000, .f32⟩
  | _, _ => ⟨S8192x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x10000 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S1000x10000 : S_.BroadcastsInDim S1000x10000 (![] : Fin 0 → Fin S1000x10000.rank)
  bitsLt_bf16_f32 : FTy.bits .bf16 < FTy.bits .f32
  inb_S128x10000_S128x10000_0_0 : ∀ a, (![0, 0] : Fin 2 → Nat) a + S128x10000.size a ≤ S128x10000.size a
  h_S128x10000 : 0 < S128x10000.numel
  inb_S1000x10000_S1000x10000_0_0 : ∀ a, (![0, 0] : Fin 2 → Nat) a + S1000x10000.size a ≤ S1000x10000.size a
  h_S1000x10000 : 0 < S1000x10000.numel
  shapeCasts_S1000x10000_S1000x10000 : S1000x10000.ShapeCasts S1000x10000
  inb_S128x1000_S128x1000_0_0 : ∀ a, (![0, 0] : Fin 2 → Nat) a + S128x1000.size a ≤ S128x1000.size a
  h_S128x1000 : 0 < S128x1000.numel
  dot_S128x10000_S1000x10000_S128x1000_1_1_0_0_n_n_wf : DotDims.WF S128x10000 S1000x10000 S128x1000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x10000.size a ≤ S8192x10000.size a
  hwx0_0 : ∀ i : grid0.Coords, EltTy.bits .f32 = 32 ∨ (Rect.block (s := S8192x10000) S128x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x10000.size a ≤ S1000x10000.size a
  hwx0_1 : ∀ i : grid0.Coords, EltTy.bits .bf16 = 32 ∨ (Rect.block (s := S1000x10000) S1000x10000.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1000.size a ≤ S8192x1000.size a
  hwx0_2 : ∀ i : grid0.Coords, EltTy.bits .f32 = 32 ∨ (Rect.block (s := S8192x1000) S128x1000.size (cc0_transform_2 i) (hinb0_2 i)).WholeWords (EltTy.packing .f32)

variable [Facts₀]

def dot_S128x10000_S1000x10000_S128x1000_1_1_0_0_n_n : DotDims S128x10000 S1000x10000 S128x1000 where
  lhsContracting := [1]
  rhsContracting := [1]
  lhsNonContracting := [0]
  rhsNonContracting := [0]
  lhsBatch := []
  rhsBatch := []
  wf := dot_S128x10000_S1000x10000_S128x1000_1_1_0_0_n_n_wf

abbrev win0_0 : Pipeline.Window sig grid0 :=
  Pipeline.Window.ofSpec (Memref.whole main_arg0) S128x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1000x10000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x1000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x10000 : Shape := ⟨2, ![8192, 10000]⟩
abbrev S1000x10000 : Shape := ⟨2, ![1000, 10000]⟩
abbrev S_ : Shape := ⟨0, ![]⟩
abbrev S8192 : Shape := ⟨1, ![8192]⟩
abbrev S1000 : Shape := ⟨1, ![1000]⟩
abbrev S8192x1000 : Shape := ⟨2, ![8192, 1000]⟩
abbrev S8192x1 : Shape := ⟨2, ![8192, 1]⟩
abbrev S1x1000 : Shape := ⟨2, ![1, 1000]⟩

abbrev nBuf : Space → Nat
  | .hbm => 16
  | .vmem => 0
  | .smem => 0
  | _ => 0

abbrev bufTy : (tb : Table) → Fin (tcTables nBuf tb) → BufTy
  | .hbm, ⟨0, _⟩ => ⟨S8192x10000, .f32⟩
  | .hbm, ⟨1, _⟩ => ⟨S1000x10000, .f32⟩
  | .hbm, ⟨2, _⟩ => ⟨S_, .f32⟩
  | .hbm, ⟨3, _⟩ => ⟨S8192, .f32⟩
  | .hbm, ⟨4, _⟩ => ⟨S_, .f32⟩
  | .hbm, ⟨5, _⟩ => ⟨S1000, .f32⟩
  | .hbm, ⟨6, _⟩ => ⟨S8192x1000, .f32⟩
  | .hbm, ⟨7, _⟩ => ⟨S8192x1, .f32⟩
  | .hbm, ⟨8, _⟩ => ⟨S1x1000, .f32⟩
  | .hbm, ⟨9, _⟩ => ⟨S8192x1000, .f32⟩
  | .hbm, ⟨10, _⟩ => ⟨S8192x1000, .f32⟩
  | .hbm, ⟨11, _⟩ => ⟨S8192x1000, .f32⟩
  | .hbm, ⟨12, _⟩ => ⟨S_, .f32⟩
  | .hbm, ⟨13, _⟩ => ⟨S8192x1000, .f32⟩
  | .hbm, ⟨14, _⟩ => ⟨S8192x1000, .f32⟩
  | .hbm, ⟨15, _⟩ => ⟨S8192x1000, .f32⟩
  | _, _ => ⟨S8192x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  reducesTo_S8192x10000_S8192_d1 : S8192x10000.ReducesTo [1] S8192
  h_S_ : 0 < S_.numel
  reducesTo_S1000x10000_S1000_d1 : S1000x10000.ReducesTo [1] S1000
  bcast_S8192_S8192x1_0 : S8192.BroadcastsInDim S8192x1 (![0] : Fin 1 → Fin S8192x1.rank)
  bcast_S1000_S1x1000_1 : S1000.BroadcastsInDim S1x1000 (![1] : Fin 1 → Fin S1x1000.rank)
  bcast_S8192x1_S8192x1000_0_1 : S8192x1.BroadcastsInDim S8192x1000 (![0, 1] : Fin 2 → Fin S8192x1000.rank)
  bcast_S1x1000_S8192x1000_0_1 : S1x1000.BroadcastsInDim S8192x1000 (![0, 1] : Fin 2 → Fin S8192x1000.rank)
  bcast_S_S8192x1000 : S_.BroadcastsInDim S8192x1000 (![] : Fin 0 → Fin S8192x1000.rank)
  dot_S8192x10000_S1000x10000_S8192x1000_1_1_0_0_n_n_wf : DotDims.WF S8192x10000 S1000x10000 S8192x1000 [1] [1] [0] [0] [] []

variable [Facts₀]

def dot_S8192x10000_S1000x10000_S8192x1000_1_1_0_0_n_n : DotDims S8192x10000 S1000x10000 S8192x1000 where
  lhsContracting := [1]
  rhsContracting := [1]
  lhsNonContracting := [0]
  rhsNonContracting := [0]
  lhsBatch := []
  rhsBatch := []
  wf := dot_S8192x10000_S1000x10000_S8192x1000_1_1_0_0_n_n_wf

class Facts : Prop extends Facts₀ where

variable [Facts]
-- ==== Proof.Finite.lean ====
/-
  Finite inputs are arrays of real numbers.

  The precondition says, of each argument array, that every entry's absolute value is below `+∞` (a conjunction over all
  entries, and then of the two arrays). On the extended reals `max x (-x) < ⊤` excludes exactly `⊤` and `⊥`, so every entry
  is the coercion of a real: what the identity of sums needs.
-/
import proofs.«159369_j32873679684016_2_alg».proof.Pre_finite_inputs
import Idealize.ShloMosaic.Lib.ReduceAll
import Idealize.ShloMosaic.Lib.ValueIdx
import Idealize.ShloMosaic.PureOps.Ideal

noncomputable section

namespace Cert.Hamming

open Idealize.ShloMosaic

/-- An extended real whose absolute value compares below the pattern of `+∞` is a real. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | top => simp [Ideal.cmp] at h
  | coe r => exact ⟨r, rfl⟩

/-- Under the precondition every entry of both argument arrays is a real. -/
theorem entries_real [Cert.Pre_finite_inputs.Facts] (x0 : FVec Ideal Cert.Pre_finite_inputs.S8192x10000 .f32)
    (x1 : FVec Ideal Cert.Pre_finite_inputs.S1000x10000 .f32)
    (h : Cert.Pre_finite_inputs.fn (F := Ideal) x0 x1 = fun _ => 1#1) :
    (∀ i, ∃ r : ℝ, x0 i = (r : EReal)) ∧ (∀ i, ∃ r : ℝ, x1 i = (r : EReal)) := by
  haveI : Subsingleton Cert.Pre_finite_inputs.S_.Idx := ⟨fun a b => funext fun d => d.elim0⟩
  have h' := congrFun h ValueIdx.ix0
  dsimp only [Cert.Pre_finite_inputs.fn] at h'
  obtain ⟨ha, hb⟩ := IntOp.andi_eq_one.1 h'
  exact ⟨fun i => real_of_abs_lt_inf _ (Host.reduce_andi_all _ _ _ _ _ ha i),
    fun i => real_of_abs_lt_inf _ (Host.reduce_andi_all _ _ _ _ _ hb i)⟩

end Cert.Hamming

end
-- ==== Proof.Bipolar.lean ====
/-
  The bipolar form of the Hamming distance, as an identity of sums.

  For two rows `s`, `c` of `n` real entries put `σ k = 2 s k - 1` and `γ k = 2 c k - 1` (the map that sends the bits
  0, 1 to the signs -1, +1). Expanding the product,

      σ k * γ k = 4 s k c k - 2 s k - 2 c k + 1,

  and summing over the `n` entries, `∑ σ γ = 4 ∑ s c - 2 ∑ s - 2 ∑ c + n`. Hence

      (n - ∑ σ γ) / 2 = ∑ s + ∑ c - 2 ∑ s c,

  for ALL real rows, binary or not: the right side is the distance written with row sums and a cross product, the left
  side the same number read off one product of sign rows. The constant `n` on the left is the number of summed entries,
  which is where the literal 10000 of a row of 10000 entries comes from.

  The expansion uses distributivity, which fails on the extended reals at the infinities; so the identity is proved over
  the reals and carried to extended reals whose entries are all (coercions of) reals.
-/
import Idealize.ShloMosaic.PureOps.Ideal
import Idealize.ShloMosaic.PureOps.Ideal.Laws

noncomputable section

open scoped BigOperators

namespace Cert.Hamming

open Idealize.ShloMosaic

/-! ## The five float literals, as the reals their patterns denote -/

/-- The pattern of `2.0` denotes the real 2. -/
theorem lit_two : Ideal.ofBits .f32 0x40000000#32 = ((2 : ℝ) : EReal) := by
  simp [Ideal.ofBits, Ideal.ieee, -EReal.coe_mul]; norm_num

/-- The pattern of `1.0` denotes the real 1. -/
theorem lit_one : Ideal.ofBits .f32 0x3F800000#32 = ((1 : ℝ) : EReal) := by
  simp [Ideal.ofBits, Ideal.ieee, -EReal.coe_mul]; norm_num

/-- The pattern of `10000.0` denotes the real 10000, the number of entries of a row. -/
theorem lit_rowLength : Ideal.ofBits .f32 0x461C4000#32 = (((10000 : ℕ) : ℝ) : EReal) := by
  simp [Ideal.ofBits, Ideal.ieee, -EReal.coe_mul]; norm_num

/-- The pattern of `0.5` denotes the real 1/2. -/
theorem lit_half : Ideal.ofBits .f32 0x3F000000#32 = ((1 / 2 : ℝ) : EReal) := by
  simp [Ideal.ofBits, Ideal.ieee, -EReal.coe_mul]; norm_num

/-! ## The identity over the reals -/

/-- The sum of the products of the two sign rows, expanded. -/
theorem sum_signs (n : ℕ) (s c : Fin n → ℝ) :
    ∑ k, (2 * s k - 1) * (2 * c k - 1) = 4 * ∑ k, s k * c k - 2 * ∑ k, s k - 2 * ∑ k, c k + n := by
  calc ∑ k, (2 * s k - 1) * (2 * c k - 1)
      = ∑ k, (4 * (s k * c k) - 2 * s k - 2 * c k + 1) := Finset.sum_congr rfl fun k _ => by ring
    _ = 4 * ∑ k, s k * c k - 2 * ∑ k, s k - 2 * ∑ k, c k + n := by
        rw [Finset.sum_add_distrib, Finset.sum_sub_distrib, Finset.sum_sub_distrib, ← Finset.mul_sum, ← Finset.mul_sum,
          ← Finset.mul_sum]
        simp

/-- Half of the row length less the sign product is the distance in its row-sum form. -/
theorem real_law (n : ℕ) (s c : Fin n → ℝ) :
    ((n : ℝ) - ∑ k, (2 * s k - 1) * (2 * c k - 1)) * (1 / 2)
      = (∑ k, s k) + (∑ k, c k) - 2 * ∑ k, s k * c k := by
  rw [sum_signs]; ring

/-! ## The identity on extended reals whose entries are reals -/

/-- The coercion of a finite sum of reals is the sum of the coercions. -/
theorem coe_sum {ι : Type*} (t : Finset ι) (f : ι → ℝ) : ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- The identity with every number an extended real that is the coercion of a real (the zeros on the right are the
    two row sums' initial values, kept so that the statement has the shape both programs produce). -/
theorem ereal_law (n : ℕ) (s c : Fin n → ℝ) :
    (((n : ℝ) : EReal) - ∑ k, (((2 : ℝ) : EReal) * (s k : EReal) - ((1 : ℝ) : EReal)) * (((2 : ℝ) : EReal) * (c k : EReal) - ((1 : ℝ) : EReal)))
        * ((1 / 2 : ℝ) : EReal)
      = ((0 : EReal) + ∑ k, (s k : EReal)) + ((0 : EReal) + ∑ k, (c k : EReal)) - ((2 : ℝ) : EReal) * ∑ k, (s k : EReal) * (c k : EReal) := by
  rw [zero_add, zero_add]
  simp only [← EReal.coe_mul, ← EReal.coe_sub, ← coe_sum, ← EReal.coe_add]
  exact congrArg _ (real_law n s c)

/-- THE LAW, in the shape the two programs produce it at one output entry: `a` a row of the first argument, `b` a row of
    the second, both of 10000 finite entries; on the left the literals 10000, 2, 1 and 0.5 and the one sum of sign products, on the
    right the two row sums (each onto its zero initial value) less twice the cross sum. -/
theorem law (a b : Fin 10000 → EReal) (ha : ∀ k, ∃ r : ℝ, a k = (r : EReal)) (hb : ∀ k, ∃ r : ℝ, b k = (r : EReal)) :
    (Ideal.ofBits .f32 0x461C4000#32
        - ∑ k, (Ideal.ofBits .f32 0x40000000#32 * a k - Ideal.ofBits .f32 0x3F800000#32)
            * (Ideal.ofBits .f32 0x40000000#32 * b k - Ideal.ofBits .f32 0x3F800000#32))
        * Ideal.ofBits .f32 0x3F000000#32
      = (Ideal.ofBits .f32 0x00000000#32 + ∑ k, a k) + (Ideal.ofBits .f32 0x00000000#32 + ∑ k, b k)
        - Ideal.ofBits .f32 0x40000000#32 * ∑ k, a k * b k := by
  choose s hs using ha
  choose c hc using hb
  simp only [hs, hc, lit_two, lit_one, lit_rowLength, lit_half, Ideal.ofBits_zero_f32]
  exact ereal_law 10000 s c

end Cert.Hamming

end
-- ==== Proof.Distance.lean ====
/-
  The distance matrix, written twice.

  The first argument is an array of 8192 rows of 10000 entries, the second an array of 1000 rows of 10000 entries; the
  result has one entry for each pair (row `p` of the first, row `q` of the second). That entry depends on the two rows
  only, and is written here in the two forms of the bipolar identity:

  * `signEntry a b`: half of (the row length less the sum of the products of the sign rows `2 a - 1`, `2 b - 1`);
  * `sumEntry a b`: the sum of `a`, plus the sum of `b`, less twice the sum of the products `a k * b k`.

  `signDistance` and `distance` are the two whole arrays. They are equal whenever every entry of both arguments is a real
  number (the identity of sums, row pair by row pair).
-/
import proofs.«159369_j32873679684016_2_alg».proof.Proof.Bipolar
import Idealize.ShloMosaic.Lib.ValueIdx

noncomputable section

open scoped BigOperators

namespace Cert.Hamming

open Idealize.ShloMosaic Idealize.ShloMosaic.ValueIdx

/-- Row `p` of the first argument, entry by entry. -/
def sampleRow (x0 : (⟨2, ![8192, 10000]⟩ : Shape).Idx → EReal) (p : Fin 8192) : Fin 10000 → EReal :=
  fun k => x0 (ix2 p k)

/-- Row `q` of the second argument, entry by entry. -/
def classRow (x1 : (⟨2, ![1000, 10000]⟩ : Shape).Idx → EReal) (q : Fin 1000) : Fin 10000 → EReal :=
  fun k => x1 (ix2 q k)

/-- One entry in the sign form: `(10000 - ∑ (2 a - 1) (2 b - 1)) * 0.5`, the literals as the float words that spell them. -/
def signEntry (a b : Fin 10000 → EReal) : EReal :=
  (Ideal.ofBits .f32 0x461C4000#32
      - ∑ k, (Ideal.ofBits .f32 0x40000000#32 * a k - Ideal.ofBits .f32 0x3F800000#32)
          * (Ideal.ofBits .f32 0x40000000#32 * b k - Ideal.ofBits .f32 0x3F800000#32))
    * Ideal.ofBits .f32 0x3F000000#32

/-- One entry in the row-sum form: `(0 + ∑ a) + (0 + ∑ b) - 2 * ∑ a b`. -/
def sumEntry (a b : Fin 10000 → EReal) : EReal :=
  (Ideal.ofBits .f32 0x00000000#32 + ∑ k, a k) + (Ideal.ofBits .f32 0x00000000#32 + ∑ k, b k)
    - Ideal.ofBits .f32 0x40000000#32 * ∑ k, a k * b k

/-- The two forms of an entry agree on rows of reals. -/
theorem signEntry_eq_sumEntry (a b : Fin 10000 → EReal) (ha : ∀ k, ∃ r : ℝ, a k = (r : EReal))
    (hb : ∀ k, ∃ r : ℝ, b k = (r : EReal)) : signEntry a b = sumEntry a b :=
  law a b ha hb

/-- The whole result in the sign form: entry `(p, q)` from row `p` of the first argument and row `q` of the second. -/
def signDistance (x0 : (⟨2, ![8192, 10000]⟩ : Shape).Idx → EReal) (x1 : (⟨2, ![1000, 10000]⟩ : Shape).Idx → EReal) :
    (⟨2, ![8192, 1000]⟩ : Shape).Idx → EReal :=
  fun i => signEntry (sampleRow x0 (i 0)) (classRow x1 (i 1))

/-- The whole result in the row-sum form. -/
def distance (x0 : (⟨2, ![8192, 10000]⟩ : Shape).Idx → EReal) (x1 : (⟨2, ![1000, 10000]⟩ : Shape).Idx → EReal) :
    (⟨2, ![8192, 1000]⟩ : Shape).Idx → EReal :=
  fun i => sumEntry (sampleRow x0 (i 0)) (classRow x1 (i 1))

/-- On arguments all of whose entries are reals the two arrays are one. -/
theorem signDistance_eq_distance (x0 : (⟨2, ![8192, 10000]⟩ : Shape).Idx → EReal)
    (x1 : (⟨2, ![1000, 10000]⟩ : Shape).Idx → EReal) (h0 : ∀ i, ∃ r : ℝ, x0 i = (r : EReal))
    (h1 : ∀ i, ∃ r : ℝ, x1 i = (r : EReal)) : signDistance x0 x1 = distance x0 x1 :=
  funext fun i => signEntry_eq_sumEntry _ _ (fun _ => h0 _) (fun _ => h1 _)

end Cert.Hamming

end
-- ==== Proof.RefDistance.lean ====
/-
  The reference computes `distance`.

  Read one operation at a time, entry `(p, q)` of the reference's result is the sum of row `p` of the first argument (onto
  a zero initial value, then broadcast along the columns), plus the sum of row `q` of the second (broadcast along the rows),
  less 2 times the contraction of the two rows: the row-sum form of the distance, literally.
-/
import proofs.«159369_j32873679684016_2_alg».proof.Proof.Gen.ReferenceIdeal.Read
import proofs.«159369_j32873679684016_2_alg».proof.Proof.Distance

noncomputable section

open scoped BigOperators

namespace Cert.ReferenceIdeal.RefValue

open Cert.ReferenceIdeal Cert.ReferenceIdeal.Gen Cert.ReferenceIdeal.Read Idealize.ShloMosaic Idealize.ShloMosaic.ValueIdx

/-- The reference's last stage, at `Ideal`, is the row-sum form of the distance of its two arguments. -/
theorem result_eq (x0 : (⟨S8192x10000, .f32⟩ : BufTy).Contents (Elt Ideal)) (x1 : (⟨S1000x10000, .f32⟩ : BufTy).Contents (Elt Ideal)) :
    val_main_v10 (F := Ideal) x0 x1 = Cert.Hamming.distance x0 x1 := by
  funext i
  obtain ⟨p, q, rfl⟩ : ∃ (p : Fin 8192) (q : Fin 1000), i = ix2 p q := ⟨i 0, i 1, eq_ix2 i⟩
  -- the operand indices the stages compose are the entries of row p and of row q
  have e0 : ∀ k : Fin 10000, idx_main_v0 (idx_main_v3 (idx_main_v5 (ix2 p q))) k = ix2 p k := fun k =>
    funext fun a => Fin.ext (by match a with | ⟨0, _⟩ => rfl | ⟨1, _⟩ => rfl)
  have e1 : ∀ k : Fin 10000, idx_main_v1 (idx_main_v4 (idx_main_v6 (ix2 p q))) k = ix2 q k := fun k =>
    funext fun a => Fin.ext (by match a with | ⟨0, _⟩ => rfl | ⟨1, _⟩ => rfl)
  have el : ∀ k : Fin 10000, lidx_main_v2 (ix2 p q) k = ix2 p k := fun k =>
    funext fun a => Fin.ext (by match a with | ⟨0, _⟩ => rfl | ⟨1, _⟩ => rfl)
  have er : ∀ k : Fin 10000, ridx_main_v2 (ix2 p q) k = ix2 q k := fun k =>
    funext fun a => Fin.ext (by match a with | ⟨0, _⟩ => rfl | ⟨1, _⟩ => rfl)
  rw [val_main_v10_apply, val_main_v7_apply, val_main_v9_apply, val_main_v5_apply, val_main_v3_apply, val_main_v0_apply,
    val_main_v6_apply, val_main_v4_apply, val_main_v1_apply, val_main_v8_apply, val_main_cst_1_apply, val_main_v2_apply,
    val_main_cst_apply, val_main_cst_0_apply]
  simp only [e0, e1, el, er, Ideal.subf_def, Ideal.addf_def, Ideal.mulf_def, Ideal.ofBits_def]
  rfl

end Cert.ReferenceIdeal.RefValue

end
-- ==== Proof.KernelEntry.lean ====
/-
  One entry of the kernel's block.

  The body loads a block `x` of 128 rows of the first argument and the whole table `w` of 1000 sign rows, forms the sign
  rows `2 x - 1` of the block, contracts them with `w` along the 10000 columns into a zero accumulator, subtracts the
  result from 10000 and halves. At entry `(p, q)` of the block that is

      (10000 - ∑ k, (2 * x (p, k) - 1) * w (q, k)) * 0.5,

  a function of row `p` of the block and row `q` of the table. (The change of float format on the way into the
  contraction is the identity on extended reals, and so is the shape cast of the table to its own shape.)
-/
import proofs.«159369_j32873679684016_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Entry

open Cert.KernelIdeal Cert.KernelIdeal.Gen Idealize.ShloMosaic Idealize.ShloMosaic.ValueIdx

/-! ## The contraction's operand indices -/

/-- The left operand's row is the output's row. -/
theorem lhs_row (i : S128x1000.Idx) (k : dot_S128x10000_S1000x10000_S128x1000_1_1_0_0_n_n.contr.Idx) :
    (dot_S128x10000_S1000x10000_S128x1000_1_1_0_0_n_n.lhsIdx i k 0).val = (i 0).val := by
  unfold DotDims.lhsIdx
  rw [dif_neg (show ¬(0 : Fin S128x10000.rank) ∈ dot_S128x10000_S1000x10000_S128x1000_1_1_0_0_n_n.lhsBatch by decide),
    dif_pos (show (0 : Fin S128x10000.rank) ∈ dot_S128x10000_S1000x10000_S128x1000_1_1_0_0_n_n.lhsNonContracting by decide)]
  rfl

/-- The left operand's column is the contracted coordinate. -/
theorem lhs_col (i : S128x1000.Idx) (k : dot_S128x10000_S1000x10000_S128x1000_1_1_0_0_n_n.contr.Idx) :
    (dot_S128x10000_S1000x10000_S128x1000_1_1_0_0_n_n.lhsIdx i k 1).val = (k ⟨0, by decide⟩).val :=
  dot_S128x10000_S1000x10000_S128x1000_1_1_0_0_n_n.lhsIdx_val_of_single rfl i k

/-- The right operand's row is the output's column. -/
theorem rhs_row (i : S128x1000.Idx) (k : dot_S128x10000_S1000x10000_S128x1000_1_1_0_0_n_n.contr.Idx) :
    (dot_S128x10000_S1000x10000_S128x1000_1_1_0_0_n_n.rhsIdx i k 0).val = (i 1).val := by
  unfold DotDims.rhsIdx
  rw [dif_neg (show ¬(0 : Fin S1000x10000.rank) ∈ dot_S128x10000_S1000x10000_S128x1000_1_1_0_0_n_n.rhsBatch by decide),
    dif_pos (show (0 : Fin S1000x10000.rank) ∈ dot_S128x10000_S1000x10000_S128x1000_1_1_0_0_n_n.rhsNonContracting by decide)]
  rfl

/-- The right operand's column is the contracted coordinate. -/
theorem rhs_col (i : S128x1000.Idx) (k : dot_S128x10000_S1000x10000_S128x1000_1_1_0_0_n_n.contr.Idx) :
    (dot_S128x10000_S1000x10000_S128x1000_1_1_0_0_n_n.rhsIdx i k 1).val = (k ⟨0, by decide⟩).val :=
  dot_S128x10000_S1000x10000_S128x1000_1_1_0_0_n_n.rhsIdx_val_of_single rfl i k

/-! ## The contraction at an entry -/

/-- Into the zero accumulator, the contraction at entry `(p, q)` is the sum over the 10000 columns of row `p` of the left
    operand times row `q` of the right operand. -/
theorem contraction_apply (l : FVec Ideal S128x10000 .bf16) (r : FVec Ideal S1000x10000 .bf16) (p : Fin 128) (q : Fin 1000) :
    matmul dot_S128x10000_S1000x10000_S128x1000_1_1_0_0_n_n none l r (constant S128x1000 .f32 0x00000000#32) (ix2 p q)
      = ∑ k : Fin 10000, l (ix2 p k) * r (ix2 q k) := by
  simp only [matmul]
  rw [Ideal.matmul_constant_zero_apply,
    ← Equiv.sum_comp (ValueIdx.contrEquiv1 dot_S128x10000_S1000x10000_S128x1000_1_1_0_0_n_n 10000 rfl rfl).symm]
  refine Finset.sum_congr rfl fun k _ => ?_
  have hk := ValueIdx.contrEquiv1_symm_val dot_S128x10000_S1000x10000_S128x1000_1_1_0_0_n_n 10000 rfl rfl k
  have el : dot_S128x10000_S1000x10000_S128x1000_1_1_0_0_n_n.lhsIdx (ix2 p q) ((ValueIdx.contrEquiv1 dot_S128x10000_S1000x10000_S128x1000_1_1_0_0_n_n 10000 rfl rfl).symm k) = ix2 p k :=
    funext fun a => Fin.ext (by
      match a with
      | ⟨0, _⟩ => exact lhs_row _ _
      | ⟨1, _⟩ => exact (lhs_col _ _).trans hk)
  have er : dot_S128x10000_S1000x10000_S128x1000_1_1_0_0_n_n.rhsIdx (ix2 p q) ((ValueIdx.contrEquiv1 dot_S128x10000_S1000x10000_S128x1000_1_1_0_0_n_n 10000 rfl rfl).symm k) = ix2 q k :=
    funext fun a => Fin.ext (by
      match a with
      | ⟨0, _⟩ => exact rhs_row _ _
      | ⟨1, _⟩ => exact (rhs_col _ _).trans hk)
  rw [el, er]

/-! ## The payload at an entry -/

/-- THE BLOCK'S ENTRY `(p, q)`: half of (10000 less the sum over the columns of the sign of the block's row `p` times the
    table's row `q`). -/
theorem payload_apply (x : FVec Ideal S128x10000 .f32) (w : FVec Ideal S1000x10000 .bf16) (p : Fin 128) (q : Fin 1000) :
    k0_pay1 (F := Ideal) x w (ix2 p q)
      = (Ideal.ofBits .f32 0x461C4000#32
          - ∑ k : Fin 10000, (Ideal.ofBits .f32 0x40000000#32 * x (ix2 p k) - Ideal.ofBits .f32 0x3F800000#32) * w (ix2 q k))
        * Ideal.ofBits .f32 0x3F000000#32 := by
  unfold k0_pay1
  rw [shapeCast_self]
  refine congrArg (fun z => (Ideal.ofBits .f32 0x461C4000#32 - z) * Ideal.ofBits .f32 0x3F000000#32) ?_
  exact contraction_apply _ _ p q

end Cert.KernelIdeal.Entry

end
-- ==== Proof.KernelValue.lean ====
/-
  From the blocks to the whole array.

  The kernel runs over 64 grid points. At point `t` it is given rows `128 t … 128 t + 127` of the first argument and the
  whole table of sign rows, and writes back rows `128 t … 128 t + 127` of the result. The table is what the host
  operations before the call leave: entry `(q, k)` is `2 * c (q, k) - 1`, `c` the second argument. So the entry the
  kernel writes at `(128 t + p, q)` is the sign form of the distance of row `128 t + p` of the first argument and row `q`
  of the second: every block is a block of ONE array, `signDistance` of the two arguments. The 64 blocks of 128 rows tile
  the 8192 rows (row `r` is in the block of point `r / 128`), so after the run the result array is that array.
-/
import proofs.«159369_j32873679684016_2_alg».proof.Proof.Gen.KernelIdeal.Value
import proofs.«159369_j32873679684016_2_alg».proof.Proof.KernelEntry
import proofs.«159369_j32873679684016_2_alg».proof.Proof.Distance
import Idealize.ShloMosaic.Lib.Pipeline.Value
import Idealize.ShloMosaic.Lib.StableHlo.Run
import Idealize.ShloMosaic.Lib.Tactic

noncomputable section

open scoped BigOperators

namespace Cert.KernelIdeal.Whole

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The three index maps over the 64 points: the first argument's block and the result's block are block `t` of rows, the
    table's block is the whole table. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-! ## The sign table, as the call finds it -/

/-- The host operations before the call leave, in the table's array, `2 * c - 1` of the second argument `c` (then a change
    of float format, the identity here). -/
theorem table_eq (c : Dev nD) :
    (V m c main_v4 : S1000x10000.Idx → EReal)
      = truncf .bf16 (subf (mulf (broadcastInDim S1000x10000 ![] bcast_S_S1000x10000 (constant (F := Ideal) S_ .f32 0x40000000#32))
            (m ((c : Thread nD τ).loc main_arg1)))
          (broadcastInDim S1000x10000 ![] bcast_S_S1000x10000 (constant (F := Ideal) S_ .f32 0x3F800000#32))) bitsLt_bf16_f32 := by
  dsimp only [Gen.V, Gen.hostOps0]
  after_results

/-! ## The input blocks, entry by entry -/

/-- Entry `y` of the first argument's block at point `t` is the argument's entry in row `128 t + y 0`, column `y 1`. -/
theorem sampleBlock_apply (c : Dev nD) (t : Fin cfg0.N) (y : S128x10000.Idx) (i : S8192x10000.Idx)
    (h0 : (i 0).val = 128 * t.val + (y 0).val) (h1 : (i 1).val = (y 1).val) :
    (iblk m c 0 t : Vec Ideal S128x10000 .f32) y = (m ((c : Thread nD τ).loc main_arg0) : S8192x10000.Idx → EReal) i := by
  obtain ⟨e00, e01, -⟩ := idx_facts t
  unfold iblk
  rw [View.read_apply]
  show V m c main_arg0 _ = _
  rw [V_main_arg0]
  refine congrArg (m ((c : Thread nD τ).loc main_arg0) : S8192x10000.Idx → EReal) (funext fun a => Fin.ext ?_)
  match a with
  | ⟨0, _⟩ => show win0_0.index t (0 : Fin 2) * 128 + 1 * (y 0).val = (i 0).val; omega
  | ⟨1, _⟩ => show win0_0.index t (1 : Fin 2) * 10000 + 1 * (y 1).val = (i 1).val; omega

/-- Entry `y` of the table's block (the whole table, at every point) is `2 * c - 1` at the same entry of the second
    argument. -/
theorem tableBlock_apply (c : Dev nD) (t : Fin cfg0.N) (y : S1000x10000.Idx) (i : S1000x10000.Idx)
    (h0 : (i 0).val = (y 0).val) (h1 : (i 1).val = (y 1).val) :
    (iblk m c 1 t : Vec Ideal S1000x10000 .bf16) y
      = Ideal.ofBits .f32 0x40000000#32 * (m ((c : Thread nD τ).loc main_arg1) : S1000x10000.Idx → EReal) i
        - Ideal.ofBits .f32 0x3F800000#32 := by
  obtain ⟨-, -, e10, e11, -⟩ := idx_facts t
  unfold iblk
  rw [View.read_apply]
  show (V m c main_v4 : S1000x10000.Idx → EReal) _ = _
  rw [table_eq]
  refine congrArg (fun z => Ideal.ofBits .f32 0x40000000#32 * (m ((c : Thread nD τ).loc main_arg1) : S1000x10000.Idx → EReal) z
    - Ideal.ofBits .f32 0x3F800000#32) (funext fun a => Fin.ext ?_)
  match a with
  | ⟨0, _⟩ => show win0_1.index t (0 : Fin 2) * 1000 + 1 * (y 0).val = (i 0).val; omega
  | ⟨1, _⟩ => show win0_1.index t (1 : Fin 2) * 10000 + 1 * (y 1).val = (i 1).val; omega

/-! ## One entry of a block is one entry of `signDistance` -/

/-- If row `y 0` of the loaded block is row `i 0` of an array `a0`, and row `y 1` of the loaded table is the sign row of row
    `i 1` of an array `a1`, then the body's entry `y` is entry `i` of `signDistance a0 a1`. -/
theorem entry_eq (x : FVec Ideal S128x10000 .f32) (w : FVec Ideal S1000x10000 .bf16)
    (a0 : S8192x10000.Idx → EReal) (a1 : S1000x10000.Idx → EReal) (y : S128x1000.Idx) (i : S8192x1000.Idx)
    (hx : ∀ k : Fin 10000, x (ix2 (n0 := 128) (n1 := 10000) (y 0) k) = a0 (ix2 (n0 := 8192) (n1 := 10000) (i 0) k))
    (hw : ∀ k : Fin 10000, w (ix2 (n0 := 1000) (n1 := 10000) (y 1) k)
        = Ideal.ofBits .f32 0x40000000#32 * a1 (ix2 (n0 := 1000) (n1 := 10000) (i 1) k) - Ideal.ofBits .f32 0x3F800000#32) :
    k0_pay1 (F := Ideal) x w y = Cert.Hamming.signDistance a0 a1 i := by
  obtain ⟨p, q, rfl⟩ : ∃ (p : Fin 128) (q : Fin 1000), y = ix2 p q := ⟨y 0, y 1, eq_ix2 y⟩
  rw [Entry.payload_apply]
  show _ = Cert.Hamming.signEntry (Cert.Hamming.sampleRow a0 (i 0)) (Cert.Hamming.classRow a1 (i 1))
  unfold Cert.Hamming.signEntry Cert.Hamming.sampleRow Cert.Hamming.classRow
  refine congrArg (fun z => (Ideal.ofBits .f32 0x461C4000#32 - z) * Ideal.ofBits .f32 0x3F000000#32)
    (Finset.sum_congr rfl fun k _ => ?_)
  have hxk : x (ix2 p k) = a0 (ix2 (n0 := 8192) (n1 := 10000) (i 0) k) := hx k
  have hwk : w (ix2 q k) = Ideal.ofBits .f32 0x40000000#32 * a1 (ix2 (n0 := 1000) (n1 := 10000) (i 1) k)
      - Ideal.ofBits .f32 0x3F800000#32 := hw k
  rw [hxk, hwk]

/-! ## What a point writes back -/

/-- Point `t` writes back block `t` of `signDistance` of the two arguments. -/
theorem flushed_eq (c : Dev nD) (t : Fin cfg0.N) :
    (dats m 0 c).flushed 2 t = ((cfg0.win 2).blk t).view.read (Elt Ideal)
      (Cert.Hamming.signDistance (m ((c : Thread nD τ).loc main_arg0)) (m ((c : Thread nD τ).loc main_arg1))) := by
  rw [Value.flushed2]
  unfold out0_2
  rw [View.canon_unit_zero hz]
  simp only [View.ld_unit_zero (S := S128x10000) hz, View.ld_unit_zero (S := S1000x10000) hz]
  obtain ⟨-, -, -, -, e20, e21⟩ := idx_facts t
  funext j
  show k0_pay1 (iblk m c 0 t) (iblk m c 1 t) j
    = Cert.Hamming.signDistance (m ((c : Thread nD τ).loc main_arg0)) (m ((c : Thread nD τ).loc main_arg1))
        (((cfg0.win 2).blk t).view.emb j)
  refine entry_eq (iblk m c 0 t) (iblk m c 1 t) _ _ j _ (fun k => ?_) (fun k => ?_)
  · refine sampleBlock_apply m c t _ _ ?_ rfl
    show win0_2.index t (0 : Fin 2) * 128 + 1 * (j 0).val = 128 * t.val + (j 0).val
    omega
  · refine tableBlock_apply m c t _ _ ?_ rfl
    show win0_2.index t (1 : Fin 2) * 1000 + 1 * (j 1).val = (j 1).val
    omega

/-! ## The blocks tile the result -/

/-- An entry of the result is in point `t`'s block iff each coordinate is in the block's range on its axis. -/
theorem mem_blk (t : Fin cfg0.N) (i : S8192x1000.Idx) :
    i ∈ ((cfg0.win 2).blk t).view.set ↔ ∀ a : Fin 2, win0_2.index t a * S128x1000.size a ≤ (i a).val
      ∧ (i a).val < win0_2.index t a * S128x1000.size a + S128x1000.size a := by
  show i ∈ ((View.whole main_v5).slice (win0_2.rect t)).set ↔ _
  rw [View.set_slice_whole, Rect.mem_set_unit]
  exact Iff.rfl

/-- Every entry of the result is in some point's block: row `r` in the block of point `r / 128`. -/
theorem cover (i : S8192x1000.Idx) :
    ∃ t : Fin cfg0.N, (cfg0.win 2).flush t = true ∧ i ∈ ((cfg0.win 2).blk t).view.set := by
  have hi0 : (i 0).val < 8192 := (i 0).isLt
  have hi1 : (i 1).val < 1000 := (i 1).isLt
  have hN : cfg0.N = 64 := N_0
  have hlt : (i 0).val / 128 < cfg0.N := by rw [hN]; omega
  obtain ⟨-, -, -, -, e20, e21⟩ := idx_facts ⟨(i 0).val / 128, hlt⟩
  have e20' : win0_2.index ⟨(i 0).val / 128, hlt⟩ (0 : Fin 2) = (i 0).val / 128 := e20
  refine ⟨⟨(i 0).val / 128, hlt⟩, flush0_2 _, ?_⟩
  rw [mem_blk]
  intro a
  match a with
  | ⟨0, _⟩ =>
    show win0_2.index ⟨(i 0).val / 128, hlt⟩ (0 : Fin 2) * 128 ≤ (i 0).val
      ∧ (i 0).val < win0_2.index ⟨(i 0).val / 128, hlt⟩ (0 : Fin 2) * 128 + 128
    rw [e20']; omega
  | ⟨1, _⟩ =>
    show win0_2.index ⟨(i 0).val / 128, hlt⟩ (1 : Fin 2) * 1000 ≤ (i 1).val
      ∧ (i 1).val < win0_2.index ⟨(i 0).val / 128, hlt⟩ (1 : Fin 2) * 1000 + 1000
    rw [e21]; omega

/-! ## The result array, and the run -/

/-- After the run the result array is `signDistance` of the two arguments. -/
theorem final (c : Dev nD) :
    (dats m 0 c).arrAt 2 cfg0.N
      = Cert.Hamming.signDistance (m ((c : Thread nD τ).loc main_arg0)) (m ((c : Thread nD τ).loc main_arg1)) :=
  (dats m 0 c).arrAt_eq_of_cover 2 _ (fun t _ => flushed_eq m c t) cover

/-- Every weakly fair execution of the kernel's program ends with the result array at `signDistance` of the arguments and
    the arguments unchanged. -/
theorem run : θ_run defs (onTc (τ := τ) (main (F := Ideal))) ⟨m, fun _ => 0, ρ⟩ fun r => ∀ c : Dev nD,
      r.2.mem ((c : Thread nD τ).loc main_v5)
        = Cert.Hamming.signDistance (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.lean ====
/-
  The Hamming-distance matrix, computed through one product of sign rows.

  Both programs take an array `s` of 8192 rows and an array `c` of 1000 rows, each row of 10000 numbers, and return the
  8192 × 1000 array whose entry `(n, j)` compares row `n` of `s` with row `j` of `c`.

  * The reference returns `∑ s(n, ·) + ∑ c(j, ·) - 2 * ∑ s(n, k) c(j, k)`: for rows of bits, the number of positions where
    the two rows differ.
  * The kernel first maps `c` to sign rows `2 c - 1` on the host, then, for each block of 128 rows of `s`, maps the block
    to sign rows `2 s - 1`, contracts the two sign arrays along the 10000 columns, and returns `(10000 - product) * 0.5`.

  Since `(2 s - 1)(2 c - 1) = 4 s c - 2 s - 2 c + 1` and a row has 10000 entries, the two results are the same real number
  for all real rows (Proof/Bipolar.lean). On the extended reals that expansion needs the entries to be finite, which the
  precondition says (Proof/Finite.lean). The kernel's result array is assembled from its 64 row blocks in
  Proof/KernelValue.lean over the entry computed in Proof/KernelEntry.lean; the reference is read one operation at a time in
  Proof/RefDistance.lean; Proof/Distance.lean states the two forms of the result. The changes of float format on the way
  into the contraction are the identity on extended reals, so the idealization rewrote nothing and what it preserves is
  trivial. The three programs' runs terminate without a fault and leave the arguments as they were: for the two kernels by
  their generated frames, for the reference by its generated run.
-/
import proofs.«159369_j32873679684016_2_alg».proof.Defs
import proofs.«159369_j32873679684016_2_alg».proof.Proof.Gen.Kernel
import proofs.«159369_j32873679684016_2_alg».proof.Proof.Gen.Kernel.Skeleton
import proofs.«159369_j32873679684016_2_alg».proof.Proof.Gen.Kernel.Launch
import proofs.«159369_j32873679684016_2_alg».proof.Proof.Gen.Kernel.Points
import proofs.«159369_j32873679684016_2_alg».proof.Proof.Gen.Kernel.Frame
import proofs.«159369_j32873679684016_2_alg».proof.Proof.Gen.KernelIdeal
import proofs.«159369_j32873679684016_2_alg».proof.Proof.Gen.KernelIdeal.Skeleton
import proofs.«159369_j32873679684016_2_alg».proof.Proof.Gen.KernelIdeal.Launch
import proofs.«159369_j32873679684016_2_alg».proof.Proof.Gen.KernelIdeal.Points
import proofs.«159369_j32873679684016_2_alg».proof.Proof.Gen.KernelIdeal.Frame
import proofs.«159369_j32873679684016_2_alg».proof.Proof.Gen.ReferenceIdeal
import proofs.«159369_j32873679684016_2_alg».proof.Proof.Gen.Pre_finite_inputs
import proofs.«159369_j32873679684016_2_alg».proof.Proof.Gen.KernelIdeal.Value
import proofs.«159369_j32873679684016_2_alg».proof.Proof.Gen.ReferenceIdeal.Run
import proofs.«159369_j32873679684016_2_alg».proof.Proof.Gen.ReferenceIdeal.Read
import proofs.«159369_j32873679684016_2_alg».proof.Proof.Finite
import proofs.«159369_j32873679684016_2_alg».proof.Proof.RefDistance
import proofs.«159369_j32873679684016_2_alg».proof.Proof.KernelValue
import Idealize.ShloMosaic.Adequacy
import Idealize.ShloMosaic.Init

noncomputable section

namespace Cert.Proof

open Idealize.ShloMosaic Idealize.SL.Sem

/-- The kernel as printed runs, without a fault, and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel over the extended reals rewrote none of its operations. -/
theorem preserves : Cert.preserves_Kernel_KernelIdeal := trivial

/-- On finite arguments both programs end with the result array at `distance` of the arguments: the kernel at the sign
    form, which is the row-sum form on arrays of reals; the reference at the row-sum form itself. -/
theorem algebraic : Cert.algebraic_KernelIdeal_ReferenceIdeal := by
  intro m ρ m' ρ' hpre hagree
  refine ⟨fun c => Cert.Hamming.distance (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩)
      (Cert.KernelIdeal.Whole.run m ρ)
    obtain ⟨h0, h1⟩ := Cert.Hamming.entries_real _ _ (hpre c)
    exact Cert.Hamming.signDistance_eq_distance _ _ h0 h1
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v10_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
